-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x224x224 : Shape := ⟨4, ![32, 64, 224, 224]⟩
abbrev S_ : Shape := ⟨0, ![]⟩

class Facts : Prop where
  bcast_S_S32x64x224x224 : S_.BroadcastsInDim S32x64x224x224 (![] : Fin 0 → Fin S32x64x224x224.rank)
  reducesTo_S32x64x224x224_S_d0_1_2_3 : S32x64x224x224.ReducesTo [0, 1, 2, 3] S_
  h_S_ : 0 < S_.numel

variable [Facts]

def fn {F : FTy → Type} [FloatOps F] (main_arg0 : FVec F S32x64x224x224 .f32) : IVec S_ 1 :=
  let main_v0 : FVec F S32x64x224x224 .f32 := Host.absf main_arg0
  let main_cst : FVec F S_ .f32 := constant S_ .f32 0x7F800000#32
  let main_v1 : FVec F S32x64x224x224 .f32 := broadcastInDim S32x64x224x224 ![] bcast_S_S32x64x224x224 main_cst
  let main_v2 : IVec S32x64x224x224 1 := cmpf .olt main_v0 main_v1
  let main_c : IVec S_ 1 := constantI S_ 1 1#1
  let main_v3 : IVec S_ 1 := (fun x v => Host.reduce IntOp.andi x v reducesTo_S32x64x224x224_S_d0_1_2_3 h_S_) main_v2 main_c
  main_v3
-- ==== Kernel.lean ====
abbrev S32x64x224x224 : Shape := ⟨4, ![32, 64, 224, 224]⟩
abbrev S2048x224x224 : Shape := ⟨3, ![2048, 224, 224]⟩
abbrev S2048x112x112 : Shape := ⟨3, ![2048, 112, 112]⟩
abbrev S32x224x224 : Shape := ⟨3, ![32, 224, 224]⟩
abbrev S32x112x112 : Shape := ⟨3, ![32, 112, 112]⟩
abbrev S32x224x112x2 : Shape := ⟨4, ![32, 224, 112, 2]⟩
abbrev S32x224x112 : Shape := ⟨3, ![32, 224, 112]⟩
abbrev S32x112x2x112 : Shape := ⟨4, ![32, 112, 2, 112]⟩
abbrev S32x64x112x112 : Shape := ⟨4, ![32, 64, 112, 112]⟩

abbrev nBuf : Space → Nat
  | .hbm => 4
  | .vmem => 4
  | .smem => 0
  | _ => 0

abbrev bufTy : (tb : Table) → Fin (tcTables nBuf tb) → BufTy
  | .hbm, ⟨0, _⟩ => ⟨S32x64x224x224, .f32⟩
  | .hbm, ⟨1, _⟩ => ⟨S2048x224x224, .f32⟩
  | .hbm, ⟨2, _⟩ => ⟨S2048x112x112, .f32⟩
  | .hbm, ⟨3, _⟩ => ⟨S32x64x112x112, .f32⟩
  | .local _ .vmem, ⟨0, _⟩ => ⟨S32x224x224, .f32⟩
  | .local _ .vmem, ⟨1, _⟩ => ⟨S32x224x224, .f32⟩
  | .local _ .vmem, ⟨2, _⟩ => ⟨S32x112x112, .f32⟩
  | .local _ .vmem, ⟨3, _⟩ => ⟨S32x112x112, .f32⟩
  | _, _ => ⟨S32x64x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x112x112 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S32x64x224x224_S2048x224x224 : S32x64x224x224.ShapeCasts S2048x224x224
  inb_S32x224x224_S32x224x224_0_0_0 : ∀ a, (![0, 0, 0] : Fin 3 → Nat) a + S32x224x224.size a ≤ S32x224x224.size a
  h_S32x224x224 : 0 < S32x224x224.numel
  shapeCasts_S32x224x224_S32x224x224 : S32x224x224.ShapeCasts S32x224x224
  shapeCasts_S32x224x224_S32x224x112x2 : S32x224x224.ShapeCasts S32x224x112x2
  reduces_S32x224x112x2_S32x224x112 : S32x224x112x2.Reduces [3] S32x224x112
  shapeCasts_S32x224x112_S32x112x2x112 : S32x224x112.ShapeCasts S32x112x2x112
  reduces_S32x112x2x112_S32x112x112 : S32x112x2x112.Reduces [2] S32x112x112
  inb_S32x112x112_S32x112x112_0_0_0 : ∀ a, (![0, 0, 0] : Fin 3 → Nat) a + S32x112x112.size a ≤ S32x112x112.size a
  h_S32x112x112 : 0 < S32x112x112.numel
  shapeCasts_S2048x112x112_S32x64x112x112 : S2048x112x112.ShapeCasts S32x64x112x112
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x224x224.size a ≤ S2048x224x224.size a
  hwx0_0 : ∀ i : grid0.Coords, EltTy.bits .f32 = 32 ∨ (Rect.block (s := S2048x224x224) S32x224x224.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x112x112.size a ≤ S2048x112x112.size a
  hwx0_1 : ∀ i : grid0.Coords, EltTy.bits .f32 = 32 ∨ (Rect.block (s := S2048x112x112) S32x112x112.size (cc0_transform_1 i) (hinb0_1 i)).WholeWords (EltTy.packing .f32)

variable [Facts₀]

abbrev win0_0 : Pipeline.Window sig grid0 :=
  Pipeline.Window.ofSpec (Memref.whole main_v0) S32x224x224.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x112x112.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x64x224x224 : Shape := ⟨4, ![32, 64, 224, 224]⟩
abbrev S_ : Shape := ⟨0, ![]⟩
abbrev S32x64x112x2x112x2 : Shape := ⟨6, ![32, 64, 112, 2, 112, 2]⟩
abbrev S32x64x112x112 : Shape := ⟨4, ![32, 64, 112, 112]⟩

abbrev nBuf : Space → Nat
  | .hbm => 14
  | .vmem => 0
  | .smem => 0
  | _ => 0

abbrev bufTy : (tb : Table) → Fin (tcTables nBuf tb) → BufTy
  | .hbm, ⟨0, _⟩ => ⟨S32x64x224x224, .f32⟩
  | .hbm, ⟨1, _⟩ => ⟨S32x64x224x224, .f32⟩
  | .hbm, ⟨2, _⟩ => ⟨S32x64x224x224, .f32⟩
  | .hbm, ⟨3, _⟩ => ⟨S_, .f32⟩
  | .hbm, ⟨4, _⟩ => ⟨S32x64x224x224, .f32⟩
  | .hbm, ⟨5, _⟩ => ⟨S32x64x224x224, .f32⟩
  | .hbm, ⟨6, _⟩ => ⟨S32x64x224x224, .f32⟩
  | .hbm, ⟨7, _⟩ => ⟨S32x64x224x224, .f32⟩
  | .hbm, ⟨8, _⟩ => ⟨S32x64x112x2x112x2, .f32⟩
  | .hbm, ⟨9, _⟩ => ⟨S_, .f32⟩
  | .hbm, ⟨10, _⟩ => ⟨S32x64x112x112, .f32⟩
  | .hbm, ⟨11, _⟩ => ⟨S_, .f32⟩
  | .hbm, ⟨12, _⟩ => ⟨S32x64x112x112, .f32⟩
  | .hbm, ⟨13, _⟩ => ⟨S32x64x112x112, .f32⟩
  | _, _ => ⟨S32x64x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  bcast_S_S32x64x224x224 : S_.BroadcastsInDim S32x64x224x224 (![] : Fin 0 → Fin S32x64x224x224.rank)
  shapeCasts_S32x64x224x224_S32x64x112x2x112x2 : S32x64x224x224.ShapeCasts S32x64x112x2x112x2
  reducesTo_S32x64x112x2x112x2_S32x64x112x112_d3_5 : S32x64x112x2x112x2.ReducesTo [3, 5] S32x64x112x112
  h_S_ : 0 < S_.numel
  bcast_S_S32x64x112x112 : S_.BroadcastsInDim S32x64x112x112 (![] : Fin 0 → Fin S32x64x112x112.rank)

variable [Facts₀]

class Facts : Prop extends Facts₀ where

variable [Facts]
-- ==== Proof.FuzzyPool.lean ====
/-
  The mathematics both programs compute, stated once over the extended reals.

  An input entry `v` is fuzzified to `v · exp((-1/2) · v · v)`; an output entry is the mean of the four fuzzified
  entries of one non-overlapping 2×2 window: output row `i` averages input rows `2i` and `2i+1`, output column `j`
  input columns `2j` and `2j+1`. The mean is written as the sum times `1/4`.

  Both `-1/2`, `1/2`, `1/4` and `4` are exact binary floats, so every literal here is the real number it spells.
  The two spellings of the exponent — `((-1/2) · v) · v` and `(-(v · v)) · (1/2)` — agree on EVERY extended real
  (the sign leaves a product, products commute and associate), and dividing by `4` is multiplying by `1/4` on every
  extended real; nothing below needs the inputs to be finite.
-/
import Idealize.ShloMosaic.PureOps.Ideal.Laws
import Idealize.ShloMosaic.Lib.ValueIdx
import Idealize.ShloMosaic.Lib.IdealHost
import Idealize.ShloMosaic.Lib.Pipeline.Value

noncomputable section

open scoped BigOperators
open Idealize.ShloMosaic Idealize.ShloMosaic.ValueIdx

namespace Cert.FuzzyPool

/-! ## The four literals -/

/-- The pattern `0x3F000000` is one half. -/
theorem ofBits_half : Ideal.ofBits .f32 0x3F000000#32 = ((1 / 2 : ℝ) : EReal) := by
  simp [Ideal.ofBits, Ideal.ieee, -EReal.coe_mul]; norm_num

/-- The pattern `0xBF000000` is minus one half. -/
theorem ofBits_neg_half : Ideal.ofBits .f32 0xBF000000#32 = -((1 / 2 : ℝ) : EReal) := by
  rw [← EReal.coe_neg]
  simp [Ideal.ofBits, Ideal.ieee, -EReal.coe_mul, -EReal.coe_neg]; norm_num

/-- The pattern `0x3E800000` is one quarter. -/
theorem ofBits_quarter : Ideal.ofBits .f32 0x3E800000#32 = ((1 / 4 : ℝ) : EReal) := by
  simp [Ideal.ofBits, Ideal.ieee, -EReal.coe_mul]; norm_num

/-- The pattern `0x40800000` is four. -/
theorem ofBits_four : Ideal.ofBits .f32 0x40800000#32 = ((4 : ℝ) : EReal) := by
  simp [Ideal.ofBits, Ideal.ieee, -EReal.coe_mul]; norm_num

/-! ## One entry, fuzzified -/

/-- `v · exp((-1/2) · v · v)`, the exponent grouped as the kernel multiplies it. -/
def fuzz (v : EReal) : EReal := v * Ideal.exp (Ideal.ofBits .f32 0xBF000000#32 * v * v)

/-- The reference negates the square and then halves it: the same exponent on every extended real. -/
theorem fuzz_of_neg_sq (v : EReal) :
    v * Ideal.exp (-(v * v) * Ideal.ofBits .f32 0x3F000000#32) = fuzz v := by
  unfold fuzz
  rw [ofBits_half, ofBits_neg_half, EReal.neg_mul, EReal.neg_mul, EReal.neg_mul, mul_comm (v * v), mul_assoc]

/-- Dividing by four is multiplying by one quarter, at the infinities too. -/
theorem div_four (s : EReal) :
    Ideal.div s (Ideal.ofBits .f32 0x40800000#32) = s * Ideal.ofBits .f32 0x3E800000#32 := by
  rw [ofBits_four, ofBits_quarter, Ideal.div_coe (by norm_num : (4 : ℝ) ≠ 0)]

/-! ## The 2×2 windows -/

/-- Input row (or column) `2i + m`: the `m`-th of the two that output row (or column) `i` averages. -/
def dbl (i : Fin 112) (m : Fin 2) : Fin 224 := ⟨2 * i.val + m.val, by omega⟩

theorem dbl_val (i : Fin 112) (m : Fin 2) : (dbl i m).val = 2 * i.val + m.val := rfl

/-- The pooled entry `(n, i, j)` of a stack of `N` images of 224×224: the sum over the window's two rows of the sum over
    its two columns of the fuzzified entries, times one quarter. -/
def pool3 {N : Nat} (X : (⟨3, ![N, 224, 224]⟩ : Shape).Idx → EReal) (n : Fin N) (i j : Fin 112) : EReal :=
  (∑ m : Fin 2, ∑ k : Fin 2, fuzz (X (ix3 n (dbl i m) (dbl j k)))) * Ideal.ofBits .f32 0x3E800000#32

/-- The stack of pooled images, as one function of the stack of images. -/
def pooled3 {N : Nat} (X : (⟨3, ![N, 224, 224]⟩ : Shape).Idx → EReal) : (⟨3, ![N, 112, 112]⟩ : Shape).Idx → EReal :=
  fun y => pool3 X (y 0) (y 1) (y 2)

theorem pooled3_ix3 {N : Nat} (X : (⟨3, ![N, 224, 224]⟩ : Shape).Idx → EReal) (n : Fin N) (i j : Fin 112) :
    pooled3 X (ix3 n i j) = pool3 X n i j := rfl

/-- The pooled entry `(b, c, i, j)` of a batch of 32 images of 64 channels. -/
def pool4 (x : (⟨4, ![32, 64, 224, 224]⟩ : Shape).Idx → EReal) (b : Fin 32) (c : Fin 64) (i j : Fin 112) : EReal :=
  (∑ m : Fin 2, ∑ k : Fin 2, fuzz (x (ix4 b c (dbl i m) (dbl j k)))) * Ideal.ofBits .f32 0x3E800000#32

/-- The pooled batch, as one function of the batch. -/
def pooled4 (x : (⟨4, ![32, 64, 224, 224]⟩ : Shape).Idx → EReal) : (⟨4, ![32, 64, 112, 112]⟩ : Shape).Idx → EReal :=
  fun o => pool4 x (o 0) (o 1) (o 2) (o 3)

theorem pooled4_ix4 (x : (⟨4, ![32, 64, 224, 224]⟩ : Shape).Idx → EReal) (b : Fin 32) (c : Fin 64) (i j : Fin 112) :
    pooled4 x (ix4 b c i j) = pool4 x b c i j := rfl

/-! ## Batch and channel merged into one axis -/

/-- The kernel's program pools the batch viewed as ONE stack of `32 · 64 = 2048` images — image `(b, c)` at position
    `64 b + c` — and views the pooled stack as a batch again. That is the pooled batch: merging the two leading axes
    touches neither rows nor columns. -/
theorem pooled_merged (x : (⟨4, ![32, 64, 224, 224]⟩ : Shape).Idx → EReal)
    (h0 : (⟨4, ![32, 64, 224, 224]⟩ : Shape).ShapeCasts ⟨3, ![2048, 224, 224]⟩)
    (h1 : (⟨3, ![2048, 112, 112]⟩ : Shape).ShapeCasts ⟨4, ![32, 64, 112, 112]⟩) :
    shapeCast ⟨4, ![32, 64, 112, 112]⟩ (pooled3 (N := 2048) (shapeCast ⟨3, ![2048, 224, 224]⟩ x h0)) h1 = pooled4 x := by
  funext o
  obtain ⟨b, c, i, j, rfl⟩ : ∃ (b : Fin 32) (c : Fin 64) (i j : Fin 112), o = ix4 b c i j := ⟨o 0, o 1, o 2, o 3, eq_ix4 o⟩
  rw [pooled4_ix4]
  have hn : b.val * 64 + c.val < 2048 := by have := b.isLt; have := c.isLt; omega
  refine (shapeCast_apply _ h1 (ix4 b c i j) (ix3 ⟨b.val * 64 + c.val, hn⟩ i j) ?_).trans ?_
  · rw [Shape.rowMajor_val_three, Shape.rowMajor_val_four]
    show ((b.val * 64 + c.val) * 112 + i.val) * 112 + j.val = ((b.val * 64 + c.val) * 112 + i.val) * 112 + j.val
    rfl
  · rw [pooled3_ix3]
    unfold pool3 pool4
    refine congrArg (· * Ideal.ofBits .f32 0x3E800000#32)
      (Finset.sum_congr rfl fun m _ => Finset.sum_congr rfl fun k _ => congrArg fuzz ?_)
    refine shapeCast_apply _ h0 _ (ix4 b c (dbl i m) (dbl j k)) ?_
    rw [Shape.rowMajor_val_three, Shape.rowMajor_val_four]
    show ((b.val * 64 + c.val) * 224 + (2 * i.val + m.val)) * 224 + (2 * j.val + k.val)
      = ((b.val * 64 + c.val) * 224 + (2 * i.val + m.val)) * 224 + (2 * j.val + k.val)
    rfl

/-- A block of 32 consecutive images of a stack, pooled, is the corresponding block of the pooled stack: pooling never
    mixes images. `x0` is block `T` of the stack `X` (images `32 T … 32 T + 31`), `y` an entry of the pooled block and `z`
    the entry of the pooled stack it sits at. -/
theorem pooled_block (X : (⟨3, ![2048, 224, 224]⟩ : Shape).Idx → EReal) (x0 : (⟨3, ![32, 224, 224]⟩ : Shape).Idx → EReal)
    (T : Nat) (hT : T < 64)
    (hx : ∀ (n : Fin 32) (r s : Fin 224), x0 (ix3 n r s) = X (ix3 ⟨T * 32 + n.val, by have := n.isLt; omega⟩ r s))
    (y : (⟨3, ![32, 112, 112]⟩ : Shape).Idx) (z : (⟨3, ![2048, 112, 112]⟩ : Shape).Idx)
    (h0 : (z 0).val = T * 32 + (y 0).val) (h1 : (z 1).val = (y 1).val) (h2 : (z 2).val = (y 2).val) :
    pooled3 x0 y = pooled3 X z := by
  obtain ⟨n, i, j, rfl⟩ : ∃ (n : Fin 32) (i j : Fin 112), y = ix3 n i j := ⟨y 0, y 1, y 2, eq_ix3 y⟩
  have ez : z = ix3 ⟨T * 32 + n.val, by have := n.isLt; omega⟩ i j := by
    funext a; apply Fin.ext
    match a with
    | ⟨0, _⟩ => exact h0
    | ⟨1, _⟩ => exact h1
    | ⟨2, _⟩ => exact h2
  rw [ez, pooled3_ix3, pooled3_ix3]
  unfold pool3
  exact congrArg (· * Ideal.ofBits .f32 0x3E800000#32)
    (Finset.sum_congr rfl fun m _ => Finset.sum_congr rfl fun k _ => congrArg fuzz (hx n (dbl i m) (dbl j k)))

end Cert.FuzzyPool

end
-- ==== Proof.RefPool.lean ====
/-
  The reference computes the pooled batch.

  The reference fuzzifies every entry of the batch, views the [32, 64, 224, 224] result as [32, 64, 112, 2, 112, 2] —
  row `2i + m` becomes the pair `(i, m)`, column `2j + k` the pair `(j, k)` —, sums over the two window axes from zero
  and divides by four. Read at the output entry `(b, c, i, j)` that is the sum over `m` and `k` of the fuzzified entries
  `(b, c, 2i + m, 2j + k)`, times one quarter.
-/
import proofs.«134210_j4698694222169_2_alg».proof.Proof.Gen.ReferenceIdeal.Read
import proofs.«134210_j4698694222169_2_alg».proof.Proof.FuzzyPool
import Idealize.ShloMosaic.Lib.ValueIdxRank6
import Idealize.ShloMosaic.Lib.IdealHost
import Idealize.ShloMosaic.Lib.Pipeline.Value

noncomputable section

open scoped BigOperators

namespace Cert.ReferenceIdeal.RefPool

open Cert.ReferenceIdeal Cert.ReferenceIdeal.Gen Cert.ReferenceIdeal.Read
open Idealize.ShloMosaic Idealize.ShloMosaic.ValueIdx Cert.FuzzyPool

/-- A sum over the two window axes (axes 3 and 5 of the six) read at the output entry `(b, c, i, j)`: the entries that
    drop to it are exactly `(b, c, i, m, j, k)` for the four pairs `(m, k)`. -/
theorem sum_window (h' : S32x64x112x2x112x2.ReducesTo [3, 5] S32x64x112x112) (x : S32x64x112x2x112x2.Idx → EReal)
    (init : EReal) (b : Fin 32) (c : Fin 64) (i j : Fin 112) :
    Ideal.hostReduceAdd h' x init (ix4 b c i j) = init + ∑ m : Fin 2, ∑ k : Fin 2, x (ix6 b c i m j k) := by
  unfold Ideal.hostReduceAdd
  refine congrArg (init + ·) ?_
  rw [← Fintype.sum_prod_type' (f := fun (m : Fin 2) (k : Fin 2) => x (ix6 b c i m j k))]
  have hleft : ∀ i' ∈ Finset.univ.filter (fun i' => h'.drop i' = ix4 b c i j),
      ix6 b c i (i' 3 : Fin 2) j (i' 5 : Fin 2) = i' := by
    intro i' hi'
    have hj := (Finset.mem_filter.1 hi').2
    have e0 : (i' 0).val = b.val := (h'.drop_apply_val_of_eq i' 0 0).symm.trans (congrArg (fun o : S32x64x112x112.Idx => (o 0).val) hj)
    have e1 : (i' 1).val = c.val := (h'.drop_apply_val_of_eq i' 1 1).symm.trans (congrArg (fun o : S32x64x112x112.Idx => (o 1).val) hj)
    have e2 : (i' 2).val = i.val := (h'.drop_apply_val_of_eq i' 2 2).symm.trans (congrArg (fun o : S32x64x112x112.Idx => (o 2).val) hj)
    have e4 : (i' 4).val = j.val := (h'.drop_apply_val_of_eq i' 3 4).symm.trans (congrArg (fun o : S32x64x112x112.Idx => (o 3).val) hj)
    funext a; apply Fin.ext
    match a with
    | ⟨0, _⟩ => exact e0.symm
    | ⟨1, _⟩ => exact e1.symm
    | ⟨2, _⟩ => exact e2.symm
    | ⟨3, _⟩ => rfl
    | ⟨4, _⟩ => exact e4.symm
    | ⟨5, _⟩ => rfl
  refine Finset.sum_nbij' (fun i' => ((i' 3 : Fin 2), (i' 5 : Fin 2))) (fun p => ix6 b c i p.1 j p.2) ?_ ?_ hleft ?_ ?_
  · intro _ _; exact Finset.mem_univ _
  · intro p _
    refine Finset.mem_filter.2 ⟨Finset.mem_univ _, ?_⟩
    funext a; apply Fin.ext
    match a with
    | ⟨0, _⟩ => exact h'.drop_apply_val_of_eq (ix6 b c i p.1 j p.2) 0 0
    | ⟨1, _⟩ => exact h'.drop_apply_val_of_eq (ix6 b c i p.1 j p.2) 1 1
    | ⟨2, _⟩ => exact h'.drop_apply_val_of_eq (ix6 b c i p.1 j p.2) 2 2
    | ⟨3, _⟩ => exact h'.drop_apply_val_of_eq (ix6 b c i p.1 j p.2) 3 4
  · intro p _; rfl
  · intro i' hi'; exact congrArg x (hleft i' hi').symm

/-- The six-axis view at `(b, c, i, m, j, k)` is the fuzzified batch at `(b, c, 2i + m, 2j + k)`: the two entries have the
    same row-major position. -/
theorem window_entry (x : FVec Ideal S32x64x224x224 .f32) (b : Fin 32) (c : Fin 64) (i : Fin 112) (m : Fin 2) (j : Fin 112)
    (k : Fin 2) :
    val_main_v6 (F := Ideal) x (ix6 b c i m j k) = val_main_v5 (F := Ideal) x (ix4 b c (dbl i m) (dbl j k)) := by
  unfold val_main_v6
  refine shapeCast_apply _ _ _ _ ?_
  rw [Shape.rowMajor_val_four, Shape.rowMajor_val_six]
  show ((b.val * 64 + c.val) * 224 + (2 * i.val + m.val)) * 224 + (2 * j.val + k.val)
    = ((((b.val * 64 + c.val) * 112 + i.val) * 2 + m.val) * 112 + j.val) * 2 + k.val
  omega

/-- One fuzzified entry of the batch, as the reference computes it. -/
theorem fuzzified_entry (x : FVec Ideal S32x64x224x224 .f32) (q : S32x64x224x224.Idx) :
    val_main_v5 (F := Ideal) x q = fuzz (x q) := by
  rw [val_main_v5_apply, val_main_v4_apply, val_main_v3_apply, val_main_v2_apply, val_main_cst_apply, val_main_v1_apply,
    val_main_v0_apply]
  exact fuzz_of_neg_sq (x q)

/-- THE REFERENCE'S RESULT is the pooled batch. -/
theorem ref_pooled (x : FVec Ideal S32x64x224x224 .f32) : val_main_v9 (F := Ideal) x = pooled4 x := by
  funext o
  obtain ⟨b, c, i, j, rfl⟩ : ∃ (b : Fin 32) (c : Fin 64) (i j : Fin 112), o = ix4 b c i j := ⟨o 0, o 1, o 2, o 3, eq_ix4 o⟩
  rw [pooled4_ix4, val_main_v9_apply, val_main_v8_apply, val_main_cst_1_apply]
  unfold val_main_v7
  rw [hostReduceAdd_apply, sum_window, val_main_cst_0_apply]
  simp only [window_entry, fuzzified_entry]
  show Ideal.div (Ideal.ofBits .f32 0x00000000#32 + _) (Ideal.ofBits .f32 0x40800000#32) = _
  rw [Ideal.ofBits_zero_f32, zero_add, div_four]
  rfl

end Cert.ReferenceIdeal.RefPool

end
-- ==== Proof.BodyPool.lean ====
/-
  What the kernel's body stores, entry by entry.

  The body holds a block of 32 images of 224×224. It fuzzifies every entry, views the block as [32, 224, 112, 2] —
  column `2j + k` becomes the pair `(j, k)` — and sums over `k`; views the [32, 224, 112] result as
  [32, 112, 2, 112] — row `2i + m` becomes the pair `(i, m)` — and sums over `m`; and multiplies by one quarter.
  At the entry `(n, i, j)` of the stored block that is the pooled entry of the loaded block.
-/
import proofs.«134210_j4698694222169_2_alg».proof.Proof.Gen.KernelIdeal.Skeleton
import proofs.«134210_j4698694222169_2_alg».proof.Proof.FuzzyPool
import Idealize.ShloMosaic.Lib.Pipeline.Value

noncomputable section

open scoped BigOperators

namespace Cert.KernelIdeal.BodyPool

open Cert.KernelIdeal Cert.KernelIdeal.Gen
open Idealize.ShloMosaic Idealize.ShloMosaic.ValueIdx Cert.FuzzyPool

/-- Summing the column pairs: the [32, 224, 112, 2] view of `u` summed over its last axis, at `(n, r, j)`, is
    `u (n, r, 2j) + u (n, r, 2j + 1)`. -/
theorem column_pair_sum (u : FVec Ideal S32x224x224 .f32) (hc : S32x224x224.ShapeCasts S32x224x112x2)
    (hr : S32x224x112x2.Reduces [3] S32x224x112) (hφ : FKind.Formats .f32)
    (hacc : (0x00000000#32 : BitVec 32) = FKind.add.neutral .f32 hφ) (n : Fin 32) (r : Fin 224) (j : Fin 112) :
    multiReduction .add [3] S32x224x112 (shapeCast S32x224x112x2 u hc) 0x00000000#32 hr hφ hacc (ix3 n r j)
      = ∑ k : Fin 2, u (ix3 n r (dbl j k)) := by
  refine (Ideal.multiReduction_add_single _ _ hr hφ hacc (ix3 n r j)).trans ?_
  show ∑ k : Fin 2, shapeCast S32x224x112x2 u hc (hr.lift (ix3 n r j) k) = _
  refine Finset.sum_congr rfl fun k _ => ?_
  have e : hr.lift (ix3 n r j) k = ix4 n r j k := by
    funext a; apply Fin.ext
    match a with
    | ⟨0, _⟩ => rfl
    | ⟨1, _⟩ => rfl
    | ⟨2, _⟩ => rfl
    | ⟨3, _⟩ => rfl
  rw [e]
  refine shapeCast_apply _ hc _ _ ?_
  rw [Shape.rowMajor_val_three, Shape.rowMajor_val_four]
  show (n.val * 224 + r.val) * 224 + (2 * j.val + k.val) = ((n.val * 224 + r.val) * 112 + j.val) * 2 + k.val
  omega

/-- Summing the row pairs: the [32, 112, 2, 112] view of `w` summed over its third axis, at `(n, i, j)`, is
    `w (n, 2i, j) + w (n, 2i + 1, j)`. -/
theorem row_pair_sum (w : FVec Ideal S32x224x112 .f32) (hc : S32x224x112.ShapeCasts S32x112x2x112)
    (hr : S32x112x2x112.Reduces [2] S32x112x112) (hφ : FKind.Formats .f32)
    (hacc : (0x00000000#32 : BitVec 32) = FKind.add.neutral .f32 hφ) (n : Fin 32) (i j : Fin 112) :
    multiReduction .add [2] S32x112x112 (shapeCast S32x112x2x112 w hc) 0x00000000#32 hr hφ hacc (ix3 n i j)
      = ∑ m : Fin 2, w (ix3 n (dbl i m) j) := by
  refine (Ideal.multiReduction_add_single _ _ hr hφ hacc (ix3 n i j)).trans ?_
  show ∑ m : Fin 2, shapeCast S32x112x2x112 w hc (hr.lift (ix3 n i j) m) = _
  refine Finset.sum_congr rfl fun m _ => ?_
  have e : hr.lift (ix3 n i j) m = ix4 n i m j := by
    funext a; apply Fin.ext
    match a with
    | ⟨0, _⟩ => rfl
    | ⟨1, _⟩ => rfl
    | ⟨2, _⟩ => rfl
    | ⟨3, _⟩ => rfl
  rw [e]
  refine shapeCast_apply _ hc _ _ ?_
  rw [Shape.rowMajor_val_three, Shape.rowMajor_val_four]
  show (n.val * 224 + (2 * i.val + m.val)) * 112 + j.val = ((n.val * 112 + i.val) * 2 + m.val) * 112 + j.val
  omega

/-- THE STORED BLOCK is the pooled block of the loaded one. -/
theorem payload_pooled (v0 : Vec Ideal S32x224x224 .f32) : k0_pay1 (F := Ideal) v0 = pooled3 v0 := by
  funext y
  obtain ⟨n, i, j, rfl⟩ : ∃ (n : Fin 32) (i j : Fin 112), y = ix3 n i j := ⟨y 0, y 1, y 2, eq_ix3 y⟩
  rw [pooled3_ix3]
  unfold k0_pay1 pool3
  dsimp only
  refine (congrArg (· * Ideal.ofBits .f32 0x3E800000#32) (row_pair_sum _ _ _ _ _ n i j)).trans ?_
  refine congrArg (· * Ideal.ofBits .f32 0x3E800000#32) (Finset.sum_congr rfl fun m _ => ?_)
  refine (column_pair_sum _ _ _ _ _ n (dbl i m) j).trans ?_
  refine Finset.sum_congr rfl fun k _ => ?_
  rw [shapeCast_self]
  rfl

end Cert.KernelIdeal.BodyPool

end
-- ==== Proof.ArrayPool.lean ====
/-
  From the blocks to the whole arrays, and through the two reshapes of the host program.

  The grid has 64 points. Point `t` loads block `t` of the stack of 2048 images — images `32 t … 32 t + 31`, whole — and
  writes back block `t` of the pooled stack; by the body's value that block is the pooled block of what was loaded, and
  pooling never mixes images, so every point writes its block of ONE array: the pooled stack. The 64 blocks cover the
  pooled stack (image `n` is in block `n / 32`), so that is what the result array of the call holds after the run.
  Before the call the host views the batch [32, 64, 224, 224] as the stack [2048, 224, 224], after it the pooled
  stack [2048, 112, 112] as the pooled batch [32, 64, 112, 112]; merging the two leading axes commutes with pooling.
-/
import proofs.«134210_j4698694222169_2_alg».proof.Proof.Gen.KernelIdeal.Frame
import proofs.«134210_j4698694222169_2_alg».proof.Proof.BodyPool
import Idealize.ShloMosaic.Lib.Pipeline.Value
import Idealize.ShloMosaic.Lib.StableHlo.Run

noncomputable section

namespace Cert.KernelIdeal.ArrayPool

open Cert.KernelIdeal Cert.KernelIdeal.Gen
open Idealize.ShloMosaic Idealize.ShloMosaic.TcCoe Idealize.SL.Sem Idealize.ShloMosaic.StableHlo
open Idealize.ShloMosaic.ValueIdx Cert.FuzzyPool
open Idealize.ShloMosaic.Pipeline (Dat)

variable (m : (ℓ : Loc nD τ sig) → Buf (Elt Ideal) ℓ) (ρ : Dev nD → PrngReg)

theorem zero_offsets : (![0, 0, 0] : Fin 3 → Nat) = fun _ => 0 := funext fun a => by fin_cases a <;> rfl

/-- At point `t` both windows sit at block `(t, 0, 0)`: decided over the 64 points. -/
theorem block_index : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0)

/-- The grid has 64 points. -/
theorem point_lt (t : Fin cfg0.N) : t.val < 64 := Nat.lt_of_lt_of_eq t.isLt N_0

/-- The stack of images as the call finds it. -/
abbrev stack (c : Dev nD) : S2048x224x224.Idx → EReal := V m c main_v0

/-- The loaded block at point `t` is images `32 t … 32 t + 31` of the stack. -/
theorem loaded_block (c : Dev nD) (t : Fin cfg0.N) (n : Fin 32) (r s : Fin 224) :
    iblk m c 0 t (ix3 n r s) = stack m c (ix3 ⟨t.val * 32 + n.val, by have := point_lt t; have := n.isLt; omega⟩ r s) := by
  obtain ⟨e0, e1, e2, -, -, -⟩ := block_index t
  show V m c main_v0 (((cfg0.win 0).blk t).view.emb (ix3 n r s)) = _
  refine congrArg (V m c main_v0) ?_
  funext a; apply Fin.ext
  match a with
  | ⟨0, _⟩ => show win0_0.index t (0 : Fin 3) * 32 + 1 * n.val = t.val * 32 + n.val; rw [e0]; omega
  | ⟨1, _⟩ => show win0_0.index t (1 : Fin 3) * 224 + 1 * r.val = r.val; rw [e1]; omega
  | ⟨2, _⟩ => show win0_0.index t (2 : Fin 3) * 224 + 1 * s.val = s.val; rw [e2]; omega

/-- WHAT POINT `t` WRITES BACK is block `t` of the pooled stack. -/
theorem flushed_pooled (c : Dev nD) (t : Fin cfg0.N) :
    (dats m 0 c).flushed 1 t = ((cfg0.win 1).blk t).view.read (Elt Ideal) (pooled3 (N := 2048) (stack m c)) := by
  show (cfg0.win 1).cut (grid0.coords t) ((dats m 0 c).after 1 t) = _
  rw [after0_1]
  unfold out0_1
  rw [View.canon_unit_zero zero_offsets]
  simp only [View.ld_unit_zero (S := S32x224x224) zero_offsets]
  rw [BodyPool.payload_pooled]
  obtain ⟨-, -, -, e0, e1, e2⟩ := block_index t
  have ht : t.val < 64 := point_lt t
  funext y
  show pooled3 (iblk m c 0 t) y = pooled3 (N := 2048) (stack m c) (((cfg0.win 1).blk t).view.emb y)
  refine pooled_block (stack m c) (iblk m c 0 t) t.val ht (fun n r s => loaded_block m c t n r s) y _ ?_ ?_ ?_
  · show win0_1.index t (0 : Fin 3) * 32 + 1 * (y 0).val = t.val * 32 + (y 0).val; rw [e0]; omega
  · show win0_1.index t (1 : Fin 3) * 112 + 1 * (y 1).val = (y 1).val; rw [e1]; omega
  · show win0_1.index t (2 : Fin 3) * 112 + 1 * (y 2).val = (y 2).val; rw [e2]; omega

/-- An entry of the pooled stack is in point `t`'s block iff each coordinate is in the block's range on its axis. -/
theorem mem_block (t : Fin cfg0.N) (i : S2048x112x112.Idx) :
    i ∈ ((cfg0.win 1).blk t).view.set ↔ ∀ a : Fin 3, win0_1.index t a * S32x112x112.size a ≤ (i a).val
      ∧ (i a).val < win0_1.index t a * S32x112x112.size a + S32x112x112.size a := by
  show i ∈ ((View.whole main_v1).slice (win0_1.rect t)).set ↔ _
  rw [View.set_slice_whole, Rect.mem_set_unit]
  exact Iff.rfl

/-- Every entry of the pooled stack is in some point's block: image `n` is written by point `n / 32`. -/
theorem covered (i : S2048x112x112.Idx) :
    ∃ t : Fin cfg0.N, (cfg0.win 1).flush t = true ∧ i ∈ ((cfg0.win 1).blk t).view.set := by
  have hi0 : (i 0).val < 2048 := (i 0).isLt
  have hi1 : (i 1).val < 112 := (i 1).isLt
  have hi2 : (i 2).val < 112 := (i 2).isLt
  have hN : cfg0.N = 64 := N_0
  have hlt : (i 0).val / 32 < cfg0.N := by rw [hN]; omega
  obtain ⟨-, -, -, e0, e1, e2⟩ := block_index ⟨(i 0).val / 32, hlt⟩
  refine ⟨⟨(i 0).val / 32, hlt⟩, flush0_1 _, ?_⟩
  rw [mem_block]
  intro a
  match a with
  | ⟨0, _⟩ =>
    show win0_1.index ⟨(i 0).val / 32, hlt⟩ (0 : Fin 3) * 32 ≤ (i 0).val
      ∧ (i 0).val < win0_1.index ⟨(i 0).val / 32, hlt⟩ (0 : Fin 3) * 32 + 32
    rw [e0]; show (i 0).val / 32 * 32 ≤ (i 0).val ∧ (i 0).val < (i 0).val / 32 * 32 + 32; omega
  | ⟨1, _⟩ =>
    show win0_1.index ⟨(i 0).val / 32, hlt⟩ (1 : Fin 3) * 112 ≤ (i 1).val
      ∧ (i 1).val < win0_1.index ⟨(i 0).val / 32, hlt⟩ (1 : Fin 3) * 112 + 112
    rw [e1]; omega
  | ⟨2, _⟩ =>
    show win0_1.index ⟨(i 0).val / 32, hlt⟩ (2 : Fin 3) * 112 ≤ (i 2).val
      ∧ (i 2).val < win0_1.index ⟨(i 0).val / 32, hlt⟩ (2 : Fin 3) * 112 + 112
    rw [e2]; omega

/-- THE CALL'S RESULT ARRAY after the run is the pooled stack. -/
theorem result_stack (c : Dev nD) : (dats m 0 c).arrAt 1 cfg0.N = pooled3 (N := 2048) (stack m c) :=
  (dats m 0 c).arrAt_eq_of_cover 1 _ (fun t _ => flushed_pooled m c t) covered

/-- The stack the call finds is the batch with its two leading axes merged. -/
theorem stack_eq (c : Dev nD) :
    stack m c = shapeCast S2048x224x224 (m ((c : Thread nD τ).loc main_arg0)) Facts₀.shapeCasts_S32x64x224x224_S2048x224x224 := by
  show StableHlo.after hostOps0 (fun b => m (c, b)) (Proc.devRef .tc main_v0) = _
  after_results
  rfl

/-- The program's result: the host's last line views the call's result array as a batch. -/
theorem tail_result (c : Dev nD) :
    Pipeline.afterTail₀ cfgs (dats m) 0 (V0 m) [hostOps1] c main_v2
      = shapeCast S32x64x112x112 ((dats m 0 c).arrAt 1 cfg0.N) Facts₀.shapeCasts_S2048x112x112_S32x64x112x112 := by
  unfold Pipeline.afterTail₀
  show StableHlo.after hostOps1 _ (Proc.devRef .tc main_v2) = _
  after_results
  exact congrArg (fun A => shapeCast S32x64x112x112 A Facts₀.shapeCasts_S2048x112x112_S32x64x112x112)
    (Pipeline.withArrays_arr spec0 launch0.win.arr_inj c _ _ 1)

/-- THE PROGRAM'S RESULT is the pooled batch. -/
theorem result_pooled (c : Dev nD) :
    Pipeline.afterTail₀ cfgs (dats m) 0 (V0 m) [hostOps1] c main_v2 = pooled4 (m ((c : Thread nD τ).loc main_arg0)) := by
  rw [tail_result, result_stack, stack_eq]
  exact pooled_merged _ _ _

/-- The run of the kernel's program, read: every weakly fair execution ends with the result at the pooled batch and the
    argument unchanged. -/
theorem run : θ_run defs (onTc (τ := τ) (main (F := Ideal))) ⟨m, fun _ => 0, ρ⟩ fun r => ∀ c : Dev nD,
      r.2.mem ((c.tc : Thread nD τ).loc main_v2) = pooled4 (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans (result_pooled m c),
       ((h c).2 main_arg0 (Pipeline.mem_restRefs_of main_arg0 (by decide) (by decide))).trans (W_main_arg0 m (dats m) c)⟩)
    (run_main m ρ)

end Cert.KernelIdeal.ArrayPool

end
-- ==== Proof.lean ====
/-
  The proof of `Cert.Claim`: a 2×2 mean pool of a fuzzified batch, tiled over a grid, against the same pool written with
  one reshape and one two-axis sum.

  Each entry `v` of the batch [32, 64, 224, 224] is fuzzified to `v · exp(-v²/2)` and each output entry is the mean of
  the four fuzzified entries of one non-overlapping 2×2 window. The kernel's program merges batch and channel into one
  stack of 2048 images, pools it 32 images per grid point — summing column pairs, then row pairs, then multiplying by
  `1/4` — and splits the leading axis again; the reference sums each window in one two-axis sum and divides by `4`. Over
  the extended reals both results are ONE function of the batch, `pooled4` (Proof/FuzzyPool.lean): the two spellings of
  the exponent agree on every extended real, a sum may be grouped in any order, and dividing by `4` is multiplying by
  `1/4`. No step uses that the inputs are finite.

  The modules: Proof/FuzzyPool.lean states the function and the few laws; Proof/RefPool.lean reads the reference's
  result as it; Proof/BodyPool.lean reads the kernel body's stored block as the pooled block; Proof/ArrayPool.lean goes
  from the blocks to the arrays and through the host's two reshapes. The three frames are the programs' runs with the
  results dropped, and the idealization rewrote nothing.
-/
import proofs.«134210_j4698694222169_2_alg».proof.Defs
import proofs.«134210_j4698694222169_2_alg».proof.Proof.Gen.Kernel
import proofs.«134210_j4698694222169_2_alg».proof.Proof.Gen.Kernel.Skeleton
import proofs.«134210_j4698694222169_2_alg».proof.Proof.Gen.Kernel.Launch
import proofs.«134210_j4698694222169_2_alg».proof.Proof.Gen.Kernel.Points
import proofs.«134210_j4698694222169_2_alg».proof.Proof.Gen.Kernel.Frame
import proofs.«134210_j4698694222169_2_alg».proof.Proof.Gen.KernelIdeal
import proofs.«134210_j4698694222169_2_alg».proof.Proof.Gen.KernelIdeal.Skeleton
import proofs.«134210_j4698694222169_2_alg».proof.Proof.Gen.KernelIdeal.Launch
import proofs.«134210_j4698694222169_2_alg».proof.Proof.Gen.KernelIdeal.Points
import proofs.«134210_j4698694222169_2_alg».proof.Proof.Gen.KernelIdeal.Frame
import proofs.«134210_j4698694222169_2_alg».proof.Proof.Gen.ReferenceIdeal
import proofs.«134210_j4698694222169_2_alg».proof.Proof.Gen.Pre_finite_inputs
import proofs.«134210_j4698694222169_2_alg».proof.Proof.Gen.ReferenceIdeal.Run
import proofs.«134210_j4698694222169_2_alg».proof.Proof.Gen.ReferenceIdeal.Read
import proofs.«134210_j4698694222169_2_alg».proof.Proof.RefPool
import proofs.«134210_j4698694222169_2_alg».proof.Proof.ArrayPool
import Idealize.ShloMosaic.Adequacy
import Idealize.ShloMosaic.Init

noncomputable section

namespace Cert.Proof

open Idealize.ShloMosaic Idealize.ShloMosaic.TcCoe Idealize.SL.Sem

/-- The kernel's program at the word level runs and leaves its argument as it was. -/
theorem frame_kernel : Cert.frame_Kernel := fun m ρ _ => Cert.Kernel.Gen.frame m ρ

/-- So does it at the extended reals. -/
theorem frame_kernel_ideal : Cert.frame_KernelIdeal := fun m ρ _ => Cert.KernelIdeal.Gen.frame m ρ

/-- The reference's frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation: there is nothing to preserve. -/
theorem preserves : Cert.preserves_Kernel_KernelIdeal := trivial

/-- From memories that agree on the batch, both programs end with the pooled batch. -/
theorem algebraic : Cert.algebraic_KernelIdeal_ReferenceIdeal := by
  intro m ρ m' ρ' _ hagree
  refine ⟨fun c => Cert.FuzzyPool.pooled4 (m ((c.tc : Thread Cert.KernelIdeal.nD Cert.KernelIdeal.τ).loc Cert.KernelIdeal.main_arg0)),
    Cert.KernelIdeal.ArrayPool.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefPool.ref_pooled, hagree c]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
